-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S262144x256 : Shape := ⟨2, ![262144, 256]⟩
abbrev S262144 : Shape := ⟨1, ![262144]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S262144x256 : S_.BroadcastsInDim S262144x256 (![] : Fin 0 → Fin S262144x256.rank)
  reducesTo_S262144x256_S_d0_1 : S262144x256.ReducesTo [0, 1] S_

variable [Facts]

def fn_part1 {F : FTy → Type} [FloatOps F] (main_v13 : IVec S_ 1) (main_v16 : IVec S262144x256 1) : IVec S_ 1 :=
  let main_c_5 : IVec S_ 1 := constantI S_ 1 1#1
  let main_v17 : IVec S_ 1 := (fun x v => Host.reduce IntOp.andi x v reducesTo_S262144x256_S_d0_1 h_S_) main_v16 main_c_5
  let main_v18 : IVec S_ 1 := andi main_v13 main_v17
  main_v18

def fn {F : FTy → Type} [FloatOps F] (main_arg0 : FVec F S8192 .f32) (main_arg1 : FVec F S8192 .f32) (main_arg2 : FVec F S262144x256 .f32) (main_arg3 : FVec F S262144x256 .f32) (main_arg4 : IVec S262144 32) (main_arg5 : IVec S262144 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  let main_v14 : FVec F S262144x256 .f32 := Host.absf main_arg3
  let main_cst_4 : FVec F S_ .f32 := constant S_ .f32 0x7F800000#32
  let main_v15 : FVec F S262144x256 .f32 := broadcastInDim S262144x256 ![] bcast_S_S262144x256 main_cst_4
  let main_v16 : IVec S262144x256 1 := cmpf .olt main_v14 main_v15
  fn_part1 (F := F) main_v13 main_v16
-- ==== Kernel.lean ====
abbrev S8192 : Shape := ⟨1, ![8192]⟩
abbrev S262144x256 : Shape := ⟨2, ![262144, 256]⟩
abbrev S262144 : Shape := ⟨1, ![262144]⟩
abbrev S_ : Shape := ⟨0, ![]⟩
abbrev S4096x256 : Shape := ⟨2, ![4096, 256]⟩
abbrev S4096 : Shape := ⟨1, ![4096]⟩
abbrev S262144x1 : Shape := ⟨2, ![262144, 1]⟩

abbrev nBuf : Space → Nat
  | .hbm => 27
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S262144x256, .f32⟩
  | .hbm, ⟨3, _⟩ => ⟨S262144x256, .f32⟩
  | .hbm, ⟨4, _⟩ => ⟨S262144, .i32⟩
  | .hbm, ⟨5, _⟩ => ⟨S262144, .i32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S8192, .f32⟩
  | .hbm, ⟨13, _⟩ => ⟨S262144x1, .i32⟩
  | .hbm, ⟨14, _⟩ => ⟨S8192, .f32⟩
  | .hbm, ⟨15, _⟩ => ⟨S_, .f32⟩
  | .hbm, ⟨16, _⟩ => ⟨S262144, .f32⟩
  | .hbm, ⟨17, _⟩ => ⟨S_, .f32⟩
  | .hbm, ⟨18, _⟩ => ⟨S8192, .f32⟩
  | .hbm, ⟨19, _⟩ => ⟨S262144x1, .i32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096, .f32⟩
  | .local _ .vmem, ⟨5, _⟩ => ⟨S4096, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8192_S_d0 : S8192.ReducesTo [0] S_
  h_S_ : 0 < S_.numel
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  inb_S4096_S4096_0 : ∀ a, (![0] : Fin 1 → Nat) a + S4096.size a ≤ S4096.size a
  h_S4096 : 0 < S4096.numel
  bcast_S_S8192 : S_.BroadcastsInDim S8192 (![] : Fin 0 → Fin S8192.rank)
  bcast_S262144_S262144x1_0 : S262144.BroadcastsInDim S262144x1 (![0] : Fin 1 → Fin S262144x1.rank)
  bcast_S_S262144 : S_.BroadcastsInDim S262144 (![] : Fin 0 → Fin S262144.rank)
  scatter_S8192_S262144x1_S262144_n_0_0_1_wf : ScatterDims.WF S8192 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S262144.size a
  hwx0_2 : ∀ i : grid0.Coords, EltTy.bits .f32 = 32 ∨ (Rect.block (s := S262144) S4096.size (cc0_transform_2 i) (hinb0_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf

abbrev win0_0 : Pipeline.Window sig grid0 :=
  Pipeline.Window.ofSpec (Memref.whole main_arg2) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S262144x256 : Shape := ⟨2, ![262144, 256]⟩
abbrev S262144 : Shape := ⟨1, ![262144]⟩
abbrev S_ : Shape := ⟨0, ![]⟩
abbrev S262144x1 : Shape := ⟨2, ![262144, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S262144x256, .f32⟩
  | .hbm, ⟨3, _⟩ => ⟨S262144x256, .f32⟩
  | .hbm, ⟨4, _⟩ => ⟨S262144, .i32⟩
  | .hbm, ⟨5, _⟩ => ⟨S262144, .i32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S262144x256, .f32⟩
  | .hbm, ⟨11, _⟩ => ⟨S262144x256, .f32⟩
  | .hbm, ⟨12, _⟩ => ⟨S_, .f32⟩
  | .hbm, ⟨13, _⟩ => ⟨S262144, .f32⟩
  | .hbm, ⟨14, _⟩ => ⟨S262144, .f32⟩
  | .hbm, ⟨15, _⟩ => ⟨S_, .f32⟩
  | .hbm, ⟨16, _⟩ => ⟨S8192, .f32⟩
  | .hbm, ⟨17, _⟩ => ⟨S262144x1, .i32⟩
  | .hbm, ⟨18, _⟩ => ⟨S8192, .f32⟩
  | .hbm, ⟨19, _⟩ => ⟨S_, .f32⟩
  | .hbm, ⟨20, _⟩ => ⟨S262144, .f32⟩
  | .hbm, ⟨21, _⟩ => ⟨S_, .f32⟩
  | .hbm, ⟨22, _⟩ => ⟨S8192, .f32⟩
  | .hbm, ⟨23, _⟩ => ⟨S262144x1, .i32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  reducesTo_S262144x256_S262144_d1 : S262144x256.ReducesTo [1] S262144
  bcast_S_S8192 : S_.BroadcastsInDim S8192 (![] : Fin 0 → Fin S8192.rank)
  bcast_S262144_S262144x1_0 : S262144.BroadcastsInDim S262144x1 (![0] : Fin 1 → Fin S262144x1.rank)
  bcast_S_S262144 : S_.BroadcastsInDim S262144 (![] : Fin 0 → Fin S262144.rank)
  scatter_S8192_S262144x1_S262144_n_0_0_1_wf : ScatterDims.WF S8192 S262144x1 S262144 [] [0] [0] 1

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf

class Facts : Prop extends Facts₀ where

variable [Facts]
-- ==== Proof.RowDist.lean ====
/-
  The row distance. For two arrays `x`, `y` of 262144 rows of 256 extended reals, the distance of row `r` is
  `√(∑ₖ (x r k − y r k)²)`: the Euclidean distance between matched rows, with the extended reals' conventions at the
  infinities (no finiteness is used anywhere: both programs form exactly this term).
-/
import Idealize.ShloMosaic.PureOps.Ideal.Laws
import Idealize.ShloMosaic.Lib.ValueIdx

noncomputable section

open Idealize.ShloMosaic Idealize.ShloMosaic.ValueIdx
open scoped BigOperators

namespace Cert.RowDist

/-- The squared difference of the two arrays at row `r`, column `k`. -/
def sqDiff {R : Nat} (x y : (⟨2, ![R, 256]⟩ : Shape).Idx → EReal) (r : Fin R) (k : Fin 256) : EReal :=
  (x (ix2 r k) - y (ix2 r k)) * (x (ix2 r k) - y (ix2 r k))

/-- The Euclidean distance between row `r` of `x` and row `r` of `y`. -/
def rowDistAt {R : Nat} (x y : (⟨2, ![R, 256]⟩ : Shape).Idx → EReal) (r : Fin R) : EReal :=
  Ideal.sqrt (∑ k : Fin 256, sqDiff x y r k)

/-- The array of all 262144 row distances. -/
def rowDist (x y : (⟨2, ![262144, 256]⟩ : Shape).Idx → EReal) : (⟨1, ![262144]⟩ : Shape).Idx → EReal :=
  fun i => rowDistAt x y (i 0)

end Cert.RowDist

end
-- ==== Proof.Payload.lean ====
/-
  What the kernel body stores, read at one row of a block: from the two loaded [4096, 256] blocks it forms the
  difference, squares it, sums each row over its 256 lanes and takes the square root, so row `r` of the stored vector
  is the row distance of the two blocks at `r`.
-/
import proofs.«149972_j11244224381069_1_alg».proof.Proof.Gen.KernelIdeal.Skeleton
import proofs.«149972_j11244224381069_1_alg».proof.Proof.RowDist
import Idealize.ShloMosaic.PureOps.Ideal.Laws
import Idealize.ShloMosaic.Lib.ValueIdx

noncomputable section

open Idealize.ShloMosaic Idealize.ShloMosaic.ValueIdx
open scoped BigOperators

namespace Cert.KernelIdeal.Body

open Cert.KernelIdeal Cert.RowDist

/-- Inserting lane `k` into row index `r` of the reduced shape gives the block index `(r, k)`. -/
theorem lift_eq (r : Fin 4096) (k : Fin 256) :
    Cert.KernelIdeal.Gen.reduces_S4096x256_S4096.lift (ix1 r) k = ix2 r k :=
  funext fun a => Fin.ext (by match a with | ⟨0, _⟩ => rfl | ⟨1, _⟩ => rfl)

/-- Row `r` of the stored vector is `√(∑ₖ (x0 r k − x1 r k)²)`. -/
theorem pay_apply (x0 x1 : FVec Ideal S4096x256 .f32) (r : Fin 4096) :
    Cert.KernelIdeal.Gen.k0_pay1 (F := Ideal) x0 x1 (ix1 r) = rowDistAt x0 x1 r := by
  unfold Cert.KernelIdeal.Gen.k0_pay1 rowDistAt
  refine congrArg Ideal.sqrt ?_
  refine (Ideal.multiReduction_add_single (mulf (subf x0 x1) (subf x0 x1)) 0x00000000#32
    Cert.KernelIdeal.Gen.reduces_S4096x256_S4096 (.inl rfl) rfl (ix1 r)).trans ?_
  show ∑ k : Fin 256, mulf (subf x0 x1) (subf x0 x1) (Cert.KernelIdeal.Gen.reduces_S4096x256_S4096.lift (ix1 r) k)
    = ∑ k : Fin 256, sqDiff x0 x1 r k
  refine Finset.sum_congr rfl fun k _ => ?_
  exact (congrArg (mulf (subf x0 x1) (subf x0 x1)) (lift_eq r k)).trans rfl

end Cert.KernelIdeal.Body

end
-- ==== Proof.Blocks.lean ====
/-
  From blocks to the array. Grid point `t` (of 64) loads rows `4096·t … 4096·t + 4095` of the two feature arrays and
  writes back rows `4096·t … 4096·t + 4095` of the distance array; what it writes is the row distance of the loaded
  rows, so it is that block of the whole-array row distance, and the 64 blocks cover all 262144 rows.
-/
import proofs.«149972_j11244224381069_1_alg».proof.Proof.Gen.KernelIdeal.Frame
import proofs.«149972_j11244224381069_1_alg».proof.Proof.Payload
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.RowDist

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: at point `t` each window's block index along the rows is `t`, along the
    columns `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- The body's stored vector at row `j` of the block, when the loaded blocks' row `j` is row `i` of two arrays `A`, `B`,
    is the row distance of `A` and `B` at `i`. -/
theorem pay_row (x0 x1 : FVec Ideal S4096x256 .f32) (A B : S262144x256.Idx → EReal) (j : S4096.Idx) (i : S262144.Idx)
    (h0 : ∀ k : Fin 256, x0 (ix2 (n0 := 4096) (n1 := 256) (j 0) k) = A (ix2 (n0 := 262144) (n1 := 256) (i 0) k))
    (h1 : ∀ k : Fin 256, x1 (ix2 (n0 := 4096) (n1 := 256) (j 0) k) = B (ix2 (n0 := 262144) (n1 := 256) (i 0) k)) :
    k0_pay1 (F := Ideal) x0 x1 j = rowDist A B i := by
  refine (congrArg (k0_pay1 (F := Ideal) x0 x1) (eq_ix1 (n := 4096) j)).trans ?_
  refine (Cert.KernelIdeal.Body.pay_apply x0 x1 (j 0)).trans ?_
  unfold rowDist rowDistAt
  refine congrArg Ideal.sqrt (Finset.sum_congr rfl fun k _ => ?_)
  unfold sqDiff
  rw [h0 k, h1 k]

/-- WHAT POINT `t` WRITES BACK is block `t` of the row distance of the two feature arrays as the region finds them. -/
theorem flushed_eq (c : Dev nD) (t : Fin cfg0.N) :
    (dats m 0 c).flushed 2 t = ((cfg0.win 2).blk t).view.read (Elt Ideal) (rowDist (V m c main_arg2) (V m c main_arg3)) := by
  show (cfg0.win 2).cut (grid0.coords t) ((dats m 0 c).after 2 t) = _
  rw [after0_2]
  unfold out0_2
  rw [View.canon_unit_zero hz1]
  simp only [View.ld_unit_zero (S := S4096x256) hz2]
  obtain ⟨e0, e1, e2, e3, e4⟩ := idx_facts t
  funext j
  show k0_pay1 (F := Ideal) (iblk m c 0 t) (iblk m c 1 t) j = rowDist (V m c main_arg2) (V m c main_arg3) (((cfg0.win 2).blk t).view.emb j)
  refine pay_row (iblk m c 0 t) (iblk m c 1 t) (V m c main_arg2) (V m c main_arg3) j (((cfg0.win 2).blk t).view.emb j) ?_ ?_
  · intro k
    show V m c main_arg2 (((cfg0.win 0).blk t).view.emb (ix2 (n0 := 4096) (n1 := 256) (j 0) k)) = V m c main_arg2 _
    refine congrArg (V m c main_arg2) (funext fun a => Fin.ext ?_)
    match a with
    | ⟨0, _⟩ => show win0_0.index t (0 : Fin 2) * 4096 + 1 * (j 0).val = win0_2.index t (0 : Fin 1) * 4096 + 1 * (j 0).val; omega
    | ⟨1, _⟩ => show win0_0.index t (1 : Fin 2) * 256 + 1 * k.val = k.val; omega
  · intro k
    show V m c main_arg3 (((cfg0.win 1).blk t).view.emb (ix2 (n0 := 4096) (n1 := 256) (j 0) k)) = V m c main_arg3 _
    refine congrArg (V m c main_arg3) (funext fun a => Fin.ext ?_)
    match a with
    | ⟨0, _⟩ => show win0_1.index t (0 : Fin 2) * 4096 + 1 * (j 0).val = win0_2.index t (0 : Fin 1) * 4096 + 1 * (j 0).val; omega
    | ⟨1, _⟩ => show win0_1.index t (1 : Fin 2) * 256 + 1 * k.val = k.val; omega

/-- A row of the distance array is in point `t`'s block iff it lies in `4096·t … 4096·t + 4095`. -/
theorem mem_blk (t : Fin cfg0.N) (i : S262144.Idx) :
    i ∈ ((cfg0.win 2).blk t).view.set ↔ ∀ a : Fin 1, win0_2.index t a * S4096.size a ≤ (i a).val ∧ (i a).val < win0_2.index t a * S4096.size a + S4096.size a := by
  show i ∈ ((View.whole main_v3).slice (win0_2.rect t)).set ↔ _
  rw [View.set_slice_whole, Rect.mem_set_unit]
  exact Iff.rfl

/-- Every row is written back by some point: row `r` by point `r / 4096`. -/
theorem cover (i : S262144.Idx) : ∃ t : Fin cfg0.N, (cfg0.win 2).flush t = true ∧ i ∈ ((cfg0.win 2).blk t).view.set := by
  have hi : (i 0).val < 262144 := (i 0).isLt
  have hN : cfg0.N = 64 := N_0
  refine ⟨⟨(i 0).val / 4096, by rw [hN]; omega⟩, flush0_2 _, ?_⟩
  rw [mem_blk]
  intro a
  obtain ⟨-, -, -, -, e4⟩ := idx_facts ⟨(i 0).val / 4096, by rw [hN]; omega⟩
  match a with
  | ⟨0, _⟩ =>
    show win0_2.index ⟨(i 0).val / 4096, _⟩ (0 : Fin 1) * 4096 ≤ (i 0).val ∧ (i 0).val < win0_2.index ⟨(i 0).val / 4096, _⟩ (0 : Fin 1) * 4096 + 4096
    rw [e4]
    show (i 0).val / 4096 * 4096 ≤ (i 0).val ∧ (i 0).val < (i 0).val / 4096 * 4096 + 4096
    omega

/-- THE DISTANCE ARRAY after the region: the row distance of the two feature arrays as launched. -/
theorem final (c : Dev nD) : (dats m 0 c).arrAt 2 cfg0.N
    = rowDist (m ((c : Thread nD τ).loc main_arg2)) (m ((c : Thread nD τ).loc main_arg3)) := by
  rw [← V_main_arg2 m c, ← V_main_arg3 m c]
  exact (dats m 0 c).arrAt_eq_of_cover 2 _ (fun t _ => flushed_eq m c t) (cover)

end Cert.KernelIdeal.Blocks

end
-- ==== Proof.Loss.lean ====
/-
  The loss as ONE function of the prediction arrays, the segment ids and the array of row distances — the host
  operations both programs apply around the distances:
  `∑ (preds − y)² + 0.1 · ∑_g (Σ_{rows of segment g} d) / (Σ_{rows of segment g} 1)`.
  Both sides of the claim are this function of equal arguments, so it is never opened.
-/
import proofs.«149972_j11244224381069_1_alg».proof.Proof.Gen.KernelIdeal
import Idealize.ShloMosaic.PureOps.Ideal

noncomputable section

open Idealize.ShloMosaic

namespace Cert.Loss

open Cert.KernelIdeal Cert.KernelIdeal.Gen

/-- The squared-error sum of `a0` against `a1`, plus a tenth of the sum over segments of the segment's summed
    distances `d` divided by its row count; the segments are given by the ids `a4`. -/
def loss (a0 a1 : (⟨S8192, .f32⟩ : BufTy).Contents (Elt Ideal)) (a4 : (⟨S262144, .i32⟩ : BufTy).Contents (Elt Ideal))
    (d : (⟨S262144, .f32⟩ : BufTy).Contents (Elt Ideal)) : (⟨S_, .f32⟩ : BufTy).Contents (Elt Ideal) :=
  addf (Host.reduceAdd (F := Ideal) (mulf (subf a0 a1) (subf a0 a1)) (constant (F := Ideal) S_ .f32 0x00000000#32) reducesTo_S8192_S_d0 h_S_)
    (mulf (constant (F := Ideal) S_ .f32 0x3DCCCCCD#32)
      (Host.reduceAdd (F := Ideal)
        (Host.divf (F := Ideal)
          (Host.scatterAdd (F := Ideal) scatter_S8192_S262144x1_S262144_n_0_0_1
            (broadcastInDim S8192 ![] bcast_S_S8192 (constant (F := Ideal) S_ .f32 0x00000000#32))
            (broadcastInDim S262144x1 ![0] bcast_S262144_S262144x1_0 a4) d)
          (Host.scatterAdd (F := Ideal) scatter_S8192_S262144x1_S262144_n_0_0_1
            (broadcastInDim S8192 ![] bcast_S_S8192 (constant (F := Ideal) S_ .f32 0x00000000#32))
            (broadcastInDim S262144x1 ![0] bcast_S262144_S262144x1_0 a4)
            (broadcastInDim S262144 ![] bcast_S_S262144 (constant (F := Ideal) S_ .f32 0x3F800000#32))))
        (constant (F := Ideal) S_ .f32 0x00000000#32) reducesTo_S8192_S_d0 h_S_))

end Cert.Loss

end
-- ==== Proof.Tail.lean ====
/-
  The kernel program's result. After the region the program applies its host operations to the distance array the
  region left, to the squared-error sum the operations before the region left, and to the segment ids as launched:
  that is the loss of the launch arguments and the row distance of the two feature arrays.
-/
import proofs.«149972_j11244224381069_1_alg».proof.Proof.Gen.KernelIdeal.Frame
import proofs.«149972_j11244224381069_1_alg».proof.Proof.Blocks
import proofs.«149972_j11244224381069_1_alg».proof.Proof.Loss
import Idealize.ShloMosaic.Lib.StableHlo.Run

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.RowDist Cert.Loss

variable (m : (ℓ : Loc nD τ sig) → Buf (Elt Ideal) ℓ) (ρ : Dev nD → PrngReg)

/-- The buffers as the region leaves them: the pipeline's arrays at what the grid wrote, every other buffer as the
    region found it. -/
abbrev left (c : Dev nD) : Valuation τ sig (Elt Ideal) :=
  Pipeline.withArrays (cfgs 0).spec c (V0 m c) (fun w => (dats m 0 c).arrAt w (cfgs 0).N)

/-- The distance array as the region leaves it is what the grid wrote. -/
theorem left_dist (c : Dev nD) : left m c (Proc.devRef .tc main_v3) = (dats m 0 c).arrAt 2 cfg0.N :=
  Pipeline.withArrays_arr spec0 launch0.win.arr_inj c _ _ 2

/-- The segment ids are as launched. -/
theorem left_ids (c : Dev nD) : left m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The squared-error sum is what the operations before the region computed from the launch arguments. -/
theorem left_mse (c : Dev nD) : left m c (Proc.devRef .tc main_v2)
    = Host.reduceAdd (F := Ideal) (mulf (subf (m ((c : Thread nD τ).loc main_arg0)) (m ((c : Thread nD τ).loc main_arg1)))
        (subf (m ((c : Thread nD τ).loc main_arg0)) (m ((c : Thread nD τ).loc main_arg1))))
      (constant (F := Ideal) S_ .f32 0x00000000#32) reducesTo_S8192_S_d0 h_S_ :=
  (Pipeline.withArrays_of_ne _ c (V0 m c) _ main_v2 (by exact (by decide : ∀ w, Pipeline.arrRef spec0 w ≠ main_v2))).trans (by
    show StableHlo.after hostOps0 (fun b => m (c, b)) (Proc.devRef .tc main_v2) = _
    after_results)

/-- The program's result buffer after the operations that follow the region. -/
theorem tail_eq (c : Dev nD) :
    Pipeline.afterTail₀ cfgs (dats m) 0 (V0 m) [hostOps1] c main_v14
      = loss (m ((c : Thread nD τ).loc main_arg0)) (m ((c : Thread nD τ).loc main_arg1)) (m ((c : Thread nD τ).loc main_arg4))
          ((dats m 0 c).arrAt 2 cfg0.N) := by
  unfold Pipeline.afterTail₀
  show StableHlo.after hostOps1 (left m c) (Proc.devRef .tc main_v14) = _
  after_results
  rw [left_mse, left_dist, left_ids]
  rfl

/-- THE RUN, READ: every weakly fair execution of the kernel program ends with the result at the loss of the launch
    arguments and the row distance of the two feature arrays, and with the arguments unchanged. -/
theorem run : θ_run defs (onTc (τ := τ) (main (F := Ideal))) ⟨m, fun _ => 0, ρ⟩ (fun r => ∀ c : Dev nD,
      r.2.mem ((c.tc : Thread nD τ).loc main_v14)
        = loss (m ((c.tc : Thread nD τ).loc main_arg0)) (m ((c.tc : Thread nD τ).loc main_arg1)) (m ((c.tc : Thread nD τ).loc main_arg4))
            (rowDist (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v14 (Pipeline.mem_restRefs_of main_v14 (by decide) (by decide))).trans
        ((tail_eq m c).trans (congrArg (loss _ _ _) (Cert.KernelIdeal.Blocks.final m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Tail

end
-- ==== Proof.RefDist.lean ====
/-
  The reference's distances. Its host operations subtract the two feature arrays, square, sum each row over its 256
  columns from the initial value zero and take the square root: read at row `i` that is the row distance.
-/
import proofs.«149972_j11244224381069_1_alg».proof.Proof.Gen.ReferenceIdeal.Read
import proofs.«149972_j11244224381069_1_alg».proof.Proof.RowDist
import Idealize.ShloMosaic.PureOps.Ideal.Laws
import Idealize.ShloMosaic.Lib.ValueIdx

noncomputable section

open Idealize.ShloMosaic Idealize.ShloMosaic.ValueIdx
open scoped BigOperators

namespace Cert.ReferenceIdeal.RefDist

open Cert.ReferenceIdeal Cert.ReferenceIdeal.Read Cert.RowDist

/-- The element the row sum reads at row `i`, column `k` is the array's entry `(i, k)`. -/
theorem idx_row (i : S262144.Idx) (k : Fin 256) : idx_main_v5 i k = ix2 (n0 := 262144) (n1 := 256) (i 0) k :=
  funext fun a => Fin.ext (by match a with | ⟨0, _⟩ => rfl | ⟨1, _⟩ => rfl)

/-- The reference's distance array is the row distance of its two feature arrays. -/
theorem dist_eq (x2 x3 : (⟨S262144x256, .f32⟩ : BufTy).Contents (Elt Ideal)) :
    val_main_v6 (F := Ideal) x2 x3 = rowDist x2 x3 := by
  funext i
  rw [val_main_v6_apply, val_main_v5_apply]
  unfold rowDist rowDistAt
  rw [Ideal.hostUnary_sqrt_def]
  refine congrArg Ideal.sqrt ?_
  rw [val_main_cst_0_apply, Ideal.ofBits_def, Ideal.ofBits_zero_f32, zero_add]
  refine Finset.sum_congr rfl fun k _ => ?_
  rw [idx_row]
  rfl

end Cert.ReferenceIdeal.RefDist

end
-- ==== Proof.RefLoss.lean ====
/-
  The reference's result is the same loss: its host operations around the distance array are, operation for
  operation, the ones the kernel program applies, so its result is the loss of its arguments and its distances —
  which are the row distance of its two feature arrays.
-/
import proofs.«149972_j11244224381069_1_alg».proof.Proof.Gen.ReferenceIdeal.Read
import proofs.«149972_j11244224381069_1_alg».proof.Proof.RefDist
import proofs.«149972_j11244224381069_1_alg».proof.Proof.Loss

noncomputable section

open Idealize.ShloMosaic

namespace Cert.ReferenceIdeal.RefLoss

open Cert.ReferenceIdeal Cert.ReferenceIdeal.Read Cert.RowDist Cert.Loss

/-- The reference's result as the loss of its arguments and its distance array. -/
theorem result_loss (x0 x1 : (⟨S8192, .f32⟩ : BufTy).Contents (Elt Ideal)) (x2 x3 : (⟨S262144x256, .f32⟩ : BufTy).Contents (Elt Ideal))
    (x4 : (⟨S262144, .i32⟩ : BufTy).Contents (Elt Ideal)) :
    val_main_v17 (F := Ideal) x0 x1 x2 x3 x4 = loss x0 x1 x4 (val_main_v6 (F := Ideal) x2 x3) := rfl

/-- The reference's result is the loss of its arguments and the row distance of its two feature arrays. -/
theorem result_eq (x0 x1 : (⟨S8192, .f32⟩ : BufTy).Contents (Elt Ideal)) (x2 x3 : (⟨S262144x256, .f32⟩ : BufTy).Contents (Elt Ideal))
    (x4 : (⟨S262144, .i32⟩ : BufTy).Contents (Elt Ideal)) :
    val_main_v17 (F := Ideal) x0 x1 x2 x3 x4 = loss x0 x1 x4 (rowDist x2 x3) :=
  (result_loss x0 x1 x2 x3 x4).trans (congrArg (loss x0 x1 x4) (Cert.ReferenceIdeal.RefDist.dist_eq x2 x3))

end Cert.ReferenceIdeal.RefLoss

end
-- ==== Proof.lean ====
/-
  The kernel program and its reference compute one loss,
  `∑ (preds − y)² + 0.1 · ∑_g (Σ_{rows of segment g} dist) / (Σ_{rows of segment g} 1)`,
  where `dist r = √(∑ₖ (reactant r k − product r k)²)` is the Euclidean distance between matched rows of the two
  [262144, 256] feature arrays. They differ only in how `dist` is formed: the reference by whole-array host operations,
  the kernel program by a grid of 64 points, point `t` taking rows `4096·t … 4096·t + 4095`, subtracting, squaring,
  summing each row over its 256 lanes and taking the square root. On the extended reals a lane sum from zero and a
  host sum from zero are the same finite sum and the two square roots are one function, so each block the grid writes
  is that block of `dist`, the blocks cover every row, and both results are the same loss of the same arguments. The
  operations around `dist` (the squared-error sum before the region; the two segment sums, the quotient, the sum over
  segments, the scaling and the final addition after it) are literally shared and are carried as one function, never
  opened; no finiteness of the inputs is needed. The idealized kernel program is the kernel program's own text read on
  the extended reals (no operation was rewritten), so `preserves` is `True`.
-/
import proofs.«149972_j11244224381069_1_alg».proof.Defs
import proofs.«149972_j11244224381069_1_alg».proof.Proof.Gen.Kernel
import proofs.«149972_j11244224381069_1_alg».proof.Proof.Gen.Kernel.Skeleton
import proofs.«149972_j11244224381069_1_alg».proof.Proof.Gen.Kernel.Launch
import proofs.«149972_j11244224381069_1_alg».proof.Proof.Gen.Kernel.Points
import proofs.«149972_j11244224381069_1_alg».proof.Proof.Gen.Kernel.Frame
import proofs.«149972_j11244224381069_1_alg».proof.Proof.Gen.KernelIdeal
import proofs.«149972_j11244224381069_1_alg».proof.Proof.Gen.KernelIdeal.Skeleton
import proofs.«149972_j11244224381069_1_alg».proof.Proof.Gen.KernelIdeal.Launch
import proofs.«149972_j11244224381069_1_alg».proof.Proof.Gen.KernelIdeal.Points
import proofs.«149972_j11244224381069_1_alg».proof.Proof.Gen.KernelIdeal.Frame
import proofs.«149972_j11244224381069_1_alg».proof.Proof.Gen.ReferenceIdeal
import proofs.«149972_j11244224381069_1_alg».proof.Proof.Gen.ReferenceIdeal.Run
import proofs.«149972_j11244224381069_1_alg».proof.Proof.Gen.ReferenceIdeal.Read
import proofs.«149972_j11244224381069_1_alg».proof.Proof.Gen.Pre_finite_inputs
import proofs.«149972_j11244224381069_1_alg».proof.Proof.Tail
import proofs.«149972_j11244224381069_1_alg».proof.Proof.RefLoss
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for its idealization: nothing to preserve. -/
theorem preserves : Cert.preserves_Kernel_KernelIdeal := trivial

/-- From memories agreeing on the arguments both programs end with the loss of those arguments and the row distance
    of the two feature arrays. -/
theorem algebraic : Cert.algebraic_KernelIdeal_ReferenceIdeal := by
  intro m ρ m' ρ' _ hagree
  refine ⟨fun c => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (Cert.RowDist.rowDist (m ((c.tc : Thread Cert.KernelIdeal.nD Cert.KernelIdeal.τ).loc Cert.KernelIdeal.main_arg2))
        (m ((c.tc : Thread Cert.KernelIdeal.nD Cert.KernelIdeal.τ).loc Cert.KernelIdeal.main_arg3))),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, -⟩ := hagree c
  rw [Cert.ReferenceIdeal.Read.val_main_v17_eq, Cert.ReferenceIdeal.RefLoss.result_eq, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
